-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16777216 : Shape := ⟨1, ![16777216]⟩
abbrev S_ : Shape := ⟨0, ![]⟩

class Facts : Prop where
  bcast_S_S16777216 : S_.BroadcastsInDim S16777216 (![] : Fin 0 → Fin S16777216.rank)
  reducesTo_S16777216_S_d0 : S16777216.ReducesTo [0] S_
  h_S_ : 0 < S_.numel

variable [Facts]

def fn {F : FTy → Type} [FloatOps F] (main_arg0 : FVec F S16777216 .f32) (main_arg1 : FVec F S16777216 .f32) : IVec S_ 1 :=
  let main_v0 : FVec F S16777216 .f32 := Host.absf main_arg0
  let main_cst : FVec F S_ .f32 := constant S_ .f32 0x7F800000#32
  let main_v1 : FVec F S16777216 .f32 := broadcastInDim S16777216 ![] bcast_S_S16777216 main_cst
  let main_v2 : IVec S16777216 1 := cmpf .olt main_v0 main_v1
  let main_c : IVec S_ 1 := constantI S_ 1 1#1
  let main_v3 : IVec S_ 1 := (fun x v => Host.reduce IntOp.andi x v reducesTo_S16777216_S_d0 h_S_) main_v2 main_c
  let main_v4 : FVec F S16777216 .f32 := Host.absf main_arg1
  let main_cst_0 : FVec F S_ .f32 := constant S_ .f32 0x7F800000#32
  let main_v5 : FVec F S16777216 .f32 := broadcastInDim S16777216 ![] bcast_S_S16777216 main_cst_0
  let main_v6 : IVec S16777216 1 := cmpf .olt main_v4 main_v5
  let main_c_1 : IVec S_ 1 := constantI S_ 1 1#1
  let main_v7 : IVec S_ 1 := (fun x v => Host.reduce IntOp.andi x v reducesTo_S16777216_S_d0 h_S_) main_v6 main_c_1
  let main_v8 : IVec S_ 1 := andi main_v3 main_v7
  main_v8
-- ==== Kernel.lean ====
abbrev S16777216 : Shape := ⟨1, ![16777216]⟩
abbrev S131072x128 : Shape := ⟨2, ![131072, 128]⟩
abbrev S8x128 : Shape := ⟨2, ![8, 128]⟩
abbrev S4096x128 : Shape := ⟨2, ![4096, 128]⟩
abbrev S1x4096x128 : Shape := ⟨3, ![1, 4096, 128]⟩
abbrev S1 : Shape := ⟨1, ![1]⟩
abbrev S1x1x1 : Shape := ⟨3, ![1, 1, 1]⟩
abbrev S1x5 : Shape := ⟨2, ![1, 5]⟩
abbrev S5 : Shape := ⟨1, ![5]⟩
abbrev S_ : Shape := ⟨0, ![]⟩

abbrev nBuf : Space → Nat
  | .hbm => 28
  | .vmem => 6
  | .smem => 0
  | _ => 0

abbrev bufTy : (tb : Table) → Fin (tcTables nBuf tb) → BufTy
  | .hbm, ⟨0, _⟩ => ⟨S16777216, .f32⟩
  | .hbm, ⟨1, _⟩ => ⟨S16777216, .f32⟩
  | .hbm, ⟨2, _⟩ => ⟨S131072x128, .f32⟩
  | .hbm, ⟨3, _⟩ => ⟨S131072x128, .f32⟩
  | .hbm, ⟨4, _⟩ => ⟨S8x128, .f32⟩
  | .hbm, ⟨5, _⟩ => ⟨S8x128, .f32⟩
  | .hbm, ⟨6, _⟩ => ⟨S1x5, .f32⟩
  | .hbm, ⟨7, _⟩ => ⟨S5, .f32⟩
  | .hbm, ⟨8, _⟩ => ⟨S1x5, .f32⟩
  | .hbm, ⟨9, _⟩ => ⟨S5, .f32⟩
  | .hbm, ⟨10, _⟩ => ⟨S_, .f32⟩
  | .hbm, ⟨11, _⟩ => ⟨S5, .f32⟩
  | .hbm, ⟨12, _⟩ => ⟨S5, .i1⟩
  | .hbm, ⟨13, _⟩ => ⟨S_, .f32⟩
  | .hbm, ⟨14, _⟩ => ⟨S_, .f32⟩
  | .hbm, ⟨15, _⟩ => ⟨S5, .f32⟩
  | .hbm, ⟨16, _⟩ => ⟨S5, .f32⟩
  | .hbm, ⟨17, _⟩ => ⟨S5, .f32⟩
  | .hbm, ⟨18, _⟩ => ⟨S_, .f32⟩
  | .hbm, ⟨19, _⟩ => ⟨S_, .f32⟩
  | .hbm, ⟨20, _⟩ => ⟨S5, .f32⟩
  | .hbm, ⟨21, _⟩ => ⟨S5, .f32⟩
  | .hbm, ⟨22, _⟩ => ⟨S5, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .local _ .vmem, ⟨0, _⟩ => ⟨S4096x128, .f32⟩
  | .local _ .vmem, ⟨1, _⟩ => ⟨S4096x128, .f32⟩
  | .local _ .vmem, ⟨2, _⟩ => ⟨S4096x128, .f32⟩
  | .local _ .vmem, ⟨3, _⟩ => ⟨S4096x128, .f32⟩
  | .local _ .vmem, ⟨4, _⟩ => ⟨S8x128, .f32⟩
  | .local _ .vmem, ⟨5, _⟩ => ⟨S8x128, .f32⟩
  | _, _ => ⟨S16777216, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_call0_v0 : Ref sig .tc := ⟨.hbm, 14, rfl⟩
abbrev main_call0_v1 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_call1_v0 : Ref sig .tc := ⟨.hbm, 19, rfl⟩
abbrev main_call1_v1 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_cst_3 : Ref sig .tc := ⟨.hbm, 25, rfl⟩
abbrev main_v14 : Ref sig .tc := ⟨.hbm, 26, rfl⟩
abbrev main_v15 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

class Facts₀ : Prop where
  shapeCasts_S16777216_S131072x128 : S16777216.ShapeCasts S131072x128
  inb_S8x128_S8x128_0_0 : ∀ a, (![0, 0] : Fin 2 → Nat) a + S8x128.size a ≤ S8x128.size a
  h_S8x128 : 0 < S8x128.numel
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  iota_S8x128_d1_w32 : S8x128.Iotas .tc 32 [1]
  shapeCasts_S4096x128_S1x4096x128 : S4096x128.ShapeCasts S1x4096x128
  reduces_S1x4096x128_S1 : S1x4096x128.Reduces [1, 2] S1
  shapeCasts_S1_S1x1x1 : S1.ShapeCasts S1x1x1
  inpos_S1x1x1_p0_0_0 : ∀ a, (![0, 0, 0] : Fin 3 → Nat) a < S1x1x1.size a
  natLt_1_32 : 1 < 32
  shapeCasts_S8x128_S8x128 : S8x128.ShapeCasts S8x128
  slices_S8x128_S1x5_0_0 : S8x128.Slices ![0, 0] S1x5
  shapeCasts_S1x5_S5 : S1x5.ShapeCasts S5
  bcast_S_S5 : S_.BroadcastsInDim S5 (![] : Fin 0 → Fin S5.rank)
  reducesTo_S5_S_d0 : S5.ReducesTo [0] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x128.size a ≤ S131072x128.size a
  hwx0_0 : ∀ i : grid0.Coords, EltTy.bits .f32 = 32 ∨ (Rect.block (s := S131072x128) S4096x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x128.size a ≤ S131072x128.size a
  hwx0_1 : ∀ i : grid0.Coords, EltTy.bits .f32 = 32 ∨ (Rect.block (s := S131072x128) S4096x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S8x128.size a ≤ S8x128.size a
  hwx0_2 : ∀ i : grid0.Coords, EltTy.bits .f32 = 32 ∨ (Rect.block (s := S8x128) S8x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S8x128.size a ≤ S8x128.size a
  hwx0_3 : ∀ i : grid0.Coords, EltTy.bits .f32 = 32 ∨ (Rect.block (s := S8x128) S8x128.size (cc0_transform_3 i) (hinb0_3 i)).WholeWords (EltTy.packing .f32)

variable [Facts₀]

abbrev win0_0 : Pipeline.Window sig grid0 :=
  Pipeline.Window.ofSpec (Memref.whole main_v0) S4096x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S4096x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2_0) S8x128.size cc0_transform_2 reads0_2 true true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2_1) S8x128.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16777216 : Shape := ⟨1, ![16777216]⟩
abbrev S_ : Shape := ⟨0, ![]⟩
abbrev S5 : Shape := ⟨1, ![5]⟩
abbrev S16777216x1 : Shape := ⟨2, ![16777216, 1]⟩

abbrev nBuf : Space → Nat
  | .hbm => 34
  | .vmem => 0
  | .smem => 0
  | _ => 0

abbrev bufTy : (tb : Table) → Fin (tcTables nBuf tb) → BufTy
  | .hbm, ⟨0, _⟩ => ⟨S16777216, .f32⟩
  | .hbm, ⟨1, _⟩ => ⟨S16777216, .f32⟩
  | .hbm, ⟨2, _⟩ => ⟨S16777216, .f32⟩
  | .hbm, ⟨3, _⟩ => ⟨S16777216, .i32⟩
  | .hbm, ⟨4, _⟩ => ⟨S16777216, .f32⟩
  | .hbm, ⟨5, _⟩ => ⟨S16777216, .f32⟩
  | .hbm, ⟨6, _⟩ => ⟨S_, .f32⟩
  | .hbm, ⟨7, _⟩ => ⟨S5, .f32⟩
  | .hbm, ⟨8, _⟩ => ⟨S16777216x1, .i32⟩
  | .hbm, ⟨9, _⟩ => ⟨S5, .f32⟩
  | .hbm, ⟨10, _⟩ => ⟨S_, .f32⟩
  | .hbm, ⟨11, _⟩ => ⟨S16777216, .f32⟩
  | .hbm, ⟨12, _⟩ => ⟨S_, .f32⟩
  | .hbm, ⟨13, _⟩ => ⟨S5, .f32⟩
  | .hbm, ⟨14, _⟩ => ⟨S16777216x1, .i32⟩
  | .hbm, ⟨15, _⟩ => ⟨S5, .f32⟩
  | .hbm, ⟨16, _⟩ => ⟨S_, .f32⟩
  | .hbm, ⟨17, _⟩ => ⟨S5, .f32⟩
  | .hbm, ⟨18, _⟩ => ⟨S5, .i1⟩
  | .hbm, ⟨19, _⟩ => ⟨S_, .f32⟩
  | .hbm, ⟨20, _⟩ => ⟨S_, .f32⟩
  | .hbm, ⟨21, _⟩ => ⟨S5, .f32⟩
  | .hbm, ⟨22, _⟩ => ⟨S5, .f32⟩
  | .hbm, ⟨23, _⟩ => ⟨S5, .f32⟩
  | .hbm, ⟨24, _⟩ => ⟨S_, .f32⟩
  | .hbm, ⟨25, _⟩ => ⟨S_, .f32⟩
  | .hbm, ⟨26, _⟩ => ⟨S5, .f32⟩
  | .hbm, ⟨27, _⟩ => ⟨S5, .f32⟩
  | .hbm, ⟨28, _⟩ => ⟨S5, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | _, _ => ⟨S16777216, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_2 : Ref sig .tc := ⟨.hbm, 16, rfl⟩
abbrev main_v11 : Ref sig .tc := ⟨.hbm, 17, rfl⟩
abbrev main_v12 : Ref sig .tc := ⟨.hbm, 18, rfl⟩
abbrev main_cst_3 : Ref sig .tc := ⟨.hbm, 19, rfl⟩
abbrev main_call1_v0 : Ref sig .tc := ⟨.hbm, 20, rfl⟩
abbrev main_call1_v1 : Ref sig .tc := ⟨.hbm, 21, rfl⟩
abbrev main_v13 : Ref sig .tc := ⟨.hbm, 22, rfl⟩
abbrev main_v14 : Ref sig .tc := ⟨.hbm, 23, rfl⟩
abbrev main_cst_4 : Ref sig .tc := ⟨.hbm, 24, rfl⟩
abbrev main_call2_v0 : Ref sig .tc := ⟨.hbm, 25, rfl⟩
abbrev main_call2_v1 : Ref sig .tc := ⟨.hbm, 26, rfl⟩
abbrev main_v15 : Ref sig .tc := ⟨.hbm, 27, rfl⟩
abbrev main_v16 : Ref sig .tc := ⟨.hbm, 28, rfl⟩
abbrev main_cst_5 : Ref sig .tc := ⟨.hbm, 29, rfl⟩
abbrev main_v17 : Ref sig .tc := ⟨.hbm, 30, rfl⟩
abbrev main_cst_6 : Ref sig .tc := ⟨.hbm, 31, rfl⟩
abbrev main_v18 : Ref sig .tc := ⟨.hbm, 32, rfl⟩
abbrev main_v19 : Ref sig .tc := ⟨.hbm, 33, rfl⟩

abbrev nD : Nat := 1
abbrev τ : Topo := Topo.v7x

variable {F : FTy → Type} [FloatOps F]

class Facts₀ : Prop where
  bcast_S_S5 : S_.BroadcastsInDim S5 (![] : Fin 0 → Fin S5.rank)
  bcast_S16777216_S16777216x1_0 : S16777216.BroadcastsInDim S16777216x1 (![0] : Fin 1 → Fin S16777216x1.rank)
  bcast_S_S16777216 : S_.BroadcastsInDim S16777216 (![] : Fin 0 → Fin S16777216.rank)
  reducesTo_S5_S_d0 : S5.ReducesTo [0] S_
  h_S_ : 0 < S_.numel
  scatter_S5_S16777216x1_S16777216_n_0_0_1_wf : ScatterDims.WF S5 S16777216x1 S16777216 [] [0] [0] 1

variable [Facts₀]

def scatter_S5_S16777216x1_S16777216_n_0_0_1 : ScatterDims S5 S16777216x1 S16777216 where
  updateWindowDims := []
  insertedWindowDims := [0]
  scatterDimsToOperandDims := [0]
  indexVectorDim := 1
  wf := scatter_S5_S16777216x1_S16777216_n_0_0_1_wf

class Facts : Prop extends Facts₀ where

variable [Facts]
-- ==== Proof.SegSpec.lean ====
/-
  Segment sums on the extended reals, and the tail both programs apply to them.

  Both programs bucket the absolute error |pred − target| by the grade round(target) ∈ {0, …, 4}: per grade the total
  error and the number of elements, then the mean error of each grade that occurs, averaged over the grades that
  occur.  The reference buckets with one accumulating scatter over all 2²⁴ elements; the kernel with masked totals
  of 4096 × 128 blocks, accumulated over 32 grid points.  On the extended reals addition is commutative and
  associative, so both are the same sum over the elements of grade g, and the tail is one function of the two
  five-vectors.
-/
import Idealize.ShloMosaic.PureOps.Ideal
import Idealize.ShloMosaic.PureOps.Ideal.Laws
import Idealize.ShloMosaic.Lib.ValueIdx

noncomputable section

namespace Cert.SegSpec

open Idealize.ShloMosaic Idealize.ShloMosaic.ValueIdx

abbrev T5 : Shape := ⟨1, ![5]⟩
abbrev T0 : Shape := ⟨0, ![]⟩

/-- The tail: with S the per-grade error totals and C the per-grade counts, the mean S/C of each grade with C > 0
    (0 for the others), summed, over the number of grades with C > 0. -/
def tail (hb : T0.BroadcastsInDim T5 (![] : Fin 0 → Fin T5.rank)) (hr : T5.ReducesTo [0] T0) (h0 : 0 < T0.numel)
    (S C : FVec Ideal T5 .f32) : FVec Ideal T0 .f32 :=
  Host.divf
    (Host.reduceAdd
      (select (cmpf .ogt C (broadcastInDim T5 ![] hb (constant (F := Ideal) T0 .f32 0x00000000#32)))
        (Host.divf S
          (select (cmpf .ogt C (broadcastInDim T5 ![] hb (constant (F := Ideal) T0 .f32 0x00000000#32))) C
            (broadcastInDim T5 ![] hb (id (constant (F := Ideal) T0 .f32 0x3F800000#32)))))
        (broadcastInDim T5 ![] hb (id (constant (F := Ideal) T0 .f32 0x00000000#32))))
      (constant (F := Ideal) T0 .f32 0x00000000#32) hr h0)
    (Host.reduceAdd
      (uitofp .f32 (cmpf .ogt C (broadcastInDim T5 ![] hb (constant (F := Ideal) T0 .f32 0x00000000#32))))
      (constant (F := Ideal) T0 .f32 0x00000000#32) hr h0)

/-- The total of v over the elements whose grade is g. -/
def gradeTotal {ι : Type} [Fintype ι] (grade : ι → BitVec 32) (v : ι → EReal) (g : BitVec 32) : EReal :=
  ∑ j, if grade j = g then v j else 0

/-- The grade of a target value: it rounded to the nearest integer (ties to even), as a 32-bit integer. -/
def gradeOf (q : Ideal .f32) : BitVec 32 := FloatOps.fptosi (F := Ideal) 32 (FloatOps.roundeven q)

/-- The absolute error of a prediction against its target. -/
def errOf (p q : Ideal .f32) : Ideal .f32 := FloatOps.absf (FloatOps.subf p q)

/-- The float one denotes 1. -/
theorem one_eq : Ideal.ofBits .f32 0x3F800000#32 = 1 := IdealRules.sign_bit.ideal_onePat .f32

/-- A select on an integer equality test is an if on the equality. -/
theorem select_cmpi_eq {α : Type} (x g : BitVec 32) (a b : α) :
    Scalar.select (IntOp.cmpi .eq x g) a b = if x = g then a else b := by
  by_cases h : x = g
  · subst h
    rw [if_pos rfl]
    have : IntOp.cmpi .eq x x = 1#1 := by simp [IntOp.cmpi]
    rw [this]; exact select_one a b
  · rw [if_neg h]
    have hb : (x == g) = false := beq_eq_false_iff_ne.mpr h
    have : IntOp.cmpi .eq x g = 0#1 := by simp [IntOp.cmpi, hb]
    rw [this]; exact select_zero a b

/-- An equality test widened to 32 bits and converted to a float is 1 where it holds and 0 where it does not. -/
theorem sitofp_mask (x g : BitVec 32) :
    FloatOps.sitofp (F := Ideal) .f32 ((IntOp.cmpi .eq x g).setWidth 32) = if x = g then 1 else 0 := by
  by_cases h : x = g
  · subst h
    rw [if_pos rfl]
    have : IntOp.cmpi .eq x x = 1#1 := by simp [IntOp.cmpi]
    rw [this]
    show (((1#1 : BitVec 1).setWidth 32).toInt : ℝ) = (1 : EReal)
    norm_num
  · rw [if_neg h]
    have hb : (x == g) = false := beq_eq_false_iff_ne.mpr h
    have : IntOp.cmpi .eq x g = 0#1 := by simp [IntOp.cmpi, hb]
    rw [this]
    show (((0#1 : BitVec 1).setWidth 32).toInt : ℝ) = (0 : EReal)
    norm_num

/-- A word is the small numeral g exactly when it reads g as a signed integer. -/
theorem eq_ofNat_iff_toInt (x : BitVec 32) (g : Fin 5) : x = BitVec.ofNat 32 g.val ↔ x.toInt = (g.val : Int) := by
  constructor
  · rintro rfl; fin_cases g <;> rfl
  · intro h
    apply BitVec.eq_of_toInt_eq
    rw [h]; fin_cases g <;> rfl

/-- The rows of a 131072-row array, taken 4096 at a time over 32 blocks, are all its rows, once each. -/
theorem sum_blocks {M : Type} [AddCommMonoid M] (G : Fin 131072 → M) :
    ∑ t : Fin 32, ∑ r : Fin 4096, G ⟨t.val * 4096 + r.val, by have := t.isLt; have := r.isLt; omega⟩ = ∑ R : Fin 131072, G R := by
  rw [← Fintype.sum_prod_type']
  refine Fintype.sum_equiv (finProdFinEquiv.trans (finCongr (by norm_num : 32 * 4096 = 131072))) _ _ ?_
  rintro ⟨t, r⟩
  refine congrArg G (Fin.ext ?_)
  simp [finProdFinEquiv]
  omega

end Cert.SegSpec

end
-- ==== Proof.KFinal.lean ====
/-
  The two result arrays of the kernel after the run, and what the host lines after the region make of them.

  Each accumulator block's index never moves: the one block is the whole 8 × 128 array, written back after the last
  grid point only.  So each result array ends holding what the last point left in its block.  The host then takes
  row 0, lanes 0 … 4 of each array and applies the tail to the two five-vectors.
-/
import proofs.«171762_j6700148982004_1_alg».proof.Proof.Gen.KernelIdeal.Frame
import proofs.«171762_j6700148982004_1_alg».proof.Proof.SegSpec
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.KFinal

open Cert.KernelIdeal Cert.KernelIdeal.Gen

variable {F : FTy → Type} [FloatOps F]
variable (m : (ℓ : Loc nD τ sig) → Buf (Elt F) ℓ) (ρ : Dev nD → PrngReg)

/-- The last grid point. -/
def tLast : Fin cfg0.N := ⟨31, by rw [show cfg0.N = 32 from N_0]; decide⟩

/-- What the last point leaves in the sums block, as contents of the first result array. -/
abbrev res2 (c : Dev nD) : Buf (Elt F) ((c : Thread nD τ).loc main_v2_0) := (outsAt0 m c tLast.val tLast.isLt).1
/-- What the last point leaves in the counts block, as contents of the second result array. -/
abbrev res3 (c : Dev nD) : Buf (Elt F) ((c : Thread nD τ).loc main_v2_1) := (outsAt0 m c tLast.val tLast.isLt).2

/-- The one write-back of the sums block writes the whole array: block (0, 0) of an 8 × 128 array in 8 × 128 blocks. -/
theorem flushed2 (c : Dev nD) (t : Fin cfg0.N) (hf : (cfg0.win 2).flush t = true) :
    (dats m 0 c).flushed 2 t = ((cfg0.win 2).blk t).view.read (Elt F) (res2 m c) := by
  have hN : cfg0.N = 32 := N_0
  have h3 : t.val = 31 := by have := (flush0_2 t).mp hf; have := t.isLt; omega
  obtain rfl : t = tLast := Fin.ext h3
  show (cfg0.win 2).cut (grid0.coords tLast) ((dats m 0 c).after 2 tLast) = _
  rw [after0_2]
  have hz' : (fun a => win0_2.index tLast a * main_v2_0.ty.shape.size a) = fun _ => 0 := funext fun a => by fin_cases a <;> rfl
  exact (Memref.read_access_unit_zero (Elt F) main_v2_0 hz' (fun a => by rw [congrFun hz' a]; simp) (res2 m c)).symm

theorem flushed3 (c : Dev nD) (t : Fin cfg0.N) (hf : (cfg0.win 3).flush t = true) :
    (dats m 0 c).flushed 3 t = ((cfg0.win 3).blk t).view.read (Elt F) (res3 m c) := by
  have hN : cfg0.N = 32 := N_0
  have h3 : t.val = 31 := by have := (flush0_3 t).mp hf; have := t.isLt; omega
  obtain rfl : t = tLast := Fin.ext h3
  show (cfg0.win 3).cut (grid0.coords tLast) ((dats m 0 c).after 3 tLast) = _
  rw [after0_3]
  have hz' : (fun a => win0_3.index tLast a * main_v2_1.ty.shape.size a) = fun _ => 0 := funext fun a => by fin_cases a <;> rfl
  exact (Memref.read_access_unit_zero (Elt F) main_v2_1 hz' (fun a => by rw [congrFun hz' a]; simp) (res3 m c)).symm

/-- So the first result array ends holding what the last point left in the sums block. -/
theorem final2 (c : Dev nD) : (dats m 0 c).arrAt 2 cfg0.N = res2 m c :=
  (dats m 0 c).arrAt_eq_of_cover 2 (res2 m c) (flushed2 m c) fun i =>
    ⟨tLast, (flush0_2 tLast).mpr rfl, by
      show i ∈ ((View.whole main_v2_0).slice (win0_2.rect tLast)).set
      rw [View.set_slice_whole, Rect.mem_set_unit]
      intro a
      have h0 : (i 0 : Nat) < 8 := (i 0).isLt
      have h1 : (i 1 : Nat) < 128 := (i 1).isLt
      match a with
      | ⟨0, _⟩ => show win0_2.index tLast 0 * win0_2.size 0 ≤ (i 0 : Nat) ∧ (i 0 : Nat) < win0_2.index tLast 0 * win0_2.size 0 + win0_2.xsize (grid0.coords tLast) 0
                  rw [show win0_2.index tLast 0 * win0_2.size 0 = 0 from rfl, show win0_2.xsize (grid0.coords tLast) 0 = 8 from rfl]; omega
      | ⟨1, _⟩ => show win0_2.index tLast 1 * win0_2.size 1 ≤ (i 1 : Nat) ∧ (i 1 : Nat) < win0_2.index tLast 1 * win0_2.size 1 + win0_2.xsize (grid0.coords tLast) 1
                  rw [show win0_2.index tLast 1 * win0_2.size 1 = 0 from rfl, show win0_2.xsize (grid0.coords tLast) 1 = 128 from rfl]; omega⟩

/-- And the second what it left in the counts block. -/
theorem final3 (c : Dev nD) : (dats m 0 c).arrAt 3 cfg0.N = res3 m c :=
  (dats m 0 c).arrAt_eq_of_cover 3 (res3 m c) (flushed3 m c) fun i =>
    ⟨tLast, (flush0_3 tLast).mpr rfl, by
      show i ∈ ((View.whole main_v2_1).slice (win0_3.rect tLast)).set
      rw [View.set_slice_whole, Rect.mem_set_unit]
      intro a
      have h0 : (i 0 : Nat) < 8 := (i 0).isLt
      have h1 : (i 1 : Nat) < 128 := (i 1).isLt
      match a with
      | ⟨0, _⟩ => show win0_3.index tLast 0 * win0_3.size 0 ≤ (i 0 : Nat) ∧ (i 0 : Nat) < win0_3.index tLast 0 * win0_3.size 0 + win0_3.xsize (grid0.coords tLast) 0
                  rw [show win0_3.index tLast 0 * win0_3.size 0 = 0 from rfl, show win0_3.xsize (grid0.coords tLast) 0 = 8 from rfl]; omega
      | ⟨1, _⟩ => show win0_3.index tLast 1 * win0_3.size 1 ≤ (i 1 : Nat) ∧ (i 1 : Nat) < win0_3.index tLast 1 * win0_3.size 1 + win0_3.xsize (grid0.coords tLast) 1
                  rw [show win0_3.index tLast 1 * win0_3.size 1 = 0 from rfl, show win0_3.xsize (grid0.coords tLast) 1 = 128 from rfl]; omega⟩

/-- Row 0, lanes 0 … 4 of an 8 × 128 array, as the host's slice and reshape give them. -/
def head5 (A : FVec F S8x128 .f32) : FVec F S5 .f32 :=
  shapeCast S5 (extractStridedSlice S1x5 ![0, 0] A slices_S8x128_S1x5_0_0) shapeCasts_S1x5_S5

/-! ## The host lines after the region, at the extended reals -/

variable (mI : (ℓ : Loc nD τ sig) → Buf (Elt Ideal) ℓ)

set_option maxHeartbeats 2000000 in
/-- The program's result: the tail of the two five-vectors read off the result arrays. -/
theorem tail_eq (c : Dev nD) :
    Pipeline.afterTail₀ cfgs (dats mI) 0 (V0 mI) [hostOps1, hostOps1_1, hostOps1_2, hostOps1_3, hostOps1_4] c main_v15
      = Cert.SegSpec.tail bcast_S_S5 reducesTo_S5_S_d0 h_S_ (head5 (res2 mI c)) (head5 (res3 mI c)) := by
  unfold Pipeline.afterTail₀
  simp only [hostOps1, hostOps1_1, hostOps1_2, hostOps1_3, hostOps1_4, List.flatten_cons, List.flatten_nil, List.append_nil,
    List.cons_append, List.nil_append]
  after_results_simp
  have e2 : Pipeline.withArrays (cfgs 0).spec c (V0 mI c) (fun w => (dats mI 0 c).arrAt w (cfgs 0).N) (Proc.devRef .tc main_v2_0)
      = res2 mI c := (Pipeline.withArrays_arr spec0 launch0.win.arr_inj c _ _ 2).trans (final2 mI c)
  have e3 : Pipeline.withArrays (cfgs 0).spec c (V0 mI c) (fun w => (dats mI 0 c).arrAt w (cfgs 0).N) (Proc.devRef .tc main_v2_1)
      = res3 mI c := (Pipeline.withArrays_arr spec0 launch0.win.arr_inj c _ _ 3).trans (final3 mI c)
  rw [e2, e3]
  rfl

/-- The run, read: the result at the tail of the two five-vectors, the arguments unchanged. -/
theorem run : θ_run defs (onTc (τ := τ) (main (F := Ideal))) ⟨mI, fun _ => 0, ρ⟩ fun r => ∀ c : Dev nD,
      r.2.mem ((c : Thread nD τ).loc main_v15)
        = Cert.SegSpec.tail bcast_S_S5 reducesTo_S5_S_d0 h_S_ (head5 (res2 mI c)) (head5 (res3 mI c))
      ∧ r.2.mem ((c : Thread nD τ).loc main_arg0) = mI ((c : Thread nD τ).loc main_arg0)
      ∧ r.2.mem ((c : Thread nD τ).loc main_arg1) = mI ((c : Thread nD τ).loc main_arg1) :=
  (θ_run defs _ _).mono (fun _ h c =>
    ⟨((h c).2 main_v15 (Pipeline.mem_restRefs_of main_v15 (by decide) (by decide))).trans (tail_eq mI c),
     ((h c).2 main_arg0 (Pipeline.mem_restRefs_of main_arg0 (by decide) (by decide))).trans (W_main_arg0 mI (dats mI) c),
     ((h c).2 main_arg1 (Pipeline.mem_restRefs_of main_arg1 (by decide) (by decide))).trans (W_main_arg1 mI (dats mI) c)⟩)
    (run_main mI ρ)

end Cert.KernelIdeal.KFinal

end
-- ==== Proof.KStep.lean ====
/-
  One grid point of the segment-reduce kernel, as a pure function of the two input blocks and of what the
  accumulator block held before.

  The body computes, for each grade g = 0, 1, 2, 3, 4, the total over the whole 4096 × 128 block of the absolute error
  masked by "the rounded target is g" (and, for the counts, the total of the mask itself), spreads each total over
  lane g of an 8 × 128 block (a select on the lane number), adds the five spread blocks from a zero block and adds
  the result to the accumulator.  So at a lane g < 5 the step adds exactly the g-th total, and nothing else:
  the other four selects contribute the zero.
-/
import proofs.«171762_j6700148982004_1_alg».proof.Proof.Gen.KernelIdeal.Skeleton
import Idealize.ShloMosaic.PureOps.Ideal.Laws
import Idealize.ShloMosaic.Lib.ValueIdx
import Idealize.ShloMosaic.Lib.Pipeline.Value

noncomputable section

open Idealize.ShloMosaic Idealize.ShloMosaic.ValueIdx

namespace Cert.KernelIdeal.KStep

open Cert.KernelIdeal Cert.KernelIdeal.Gen

variable {F : FTy → Type} [FloatOps F]

/-- The lane number of each element of an 8 × 128 block, as the kernel's iota gives it. -/
abbrev lanes : IVec S8x128 32 := iota .tc S8x128 32 [1] iota_S8x128_d1_w32

/-- The zero the body splats. -/
abbrev fz : F .f32 := Scalar.ofBits .f32 0x00000000#32

/-- The total of a 4096 × 128 block: the lane-and-row reduction of the block seen as 1 × 4096 × 128, read at its one element. -/
def blockTotal (v : FVec F S4096x128 .f32) : F .f32 :=
  extractAt ![0, 0, 0] (shapeCast S1x1x1 (multiReduction .add [1, 2] S1 (shapeCast S1x4096x128 v shapeCasts_S4096x128_S1x4096x128)
    0x00000000#32 reduces_S1x4096x128_S1 (.inl rfl) rfl) shapeCasts_S1_S1x1x1) inpos_S1x1x1_p0_0_0

/-- "The rounded target is g", element by element of the target block. -/
def maskOf (x1 : Vec F S4096x128 .f32) (g : BitVec 32) : IVec S4096x128 1 :=
  cmpi .eq (k0_pay6 x1) (broadcast S4096x128 g)

/-- Grade g's share of the block's absolute error. -/
def segPart (x0 x1 : Vec F S4096x128 .f32) (g : BitVec 32) : F .f32 :=
  blockTotal (select (maskOf x1 g) (k0_pay7 x0 x1) (broadcast S4096x128 fz))

/-- Grade g's count in the block. -/
def cntPart (x1 : Vec F S4096x128 .f32) (g : BitVec 32) : F .f32 :=
  blockTotal (sitofp .f32 (extui 32 (maskOf x1 g) natLt_1_32))

/-- Five per-grade scalars spread over the lanes and added up from zero, read at lane number l. -/
def laneMix (s : BitVec 32 → F .f32) (l : BitVec 32) : F .f32 :=
  FloatOps.addf (FloatOps.addf (FloatOps.addf (FloatOps.addf (FloatOps.addf fz
    (Scalar.select (IntOp.cmpi .eq l 0#32) (s 0#32) fz))
    (Scalar.select (IntOp.cmpi .eq l 1#32) (s 1#32) fz))
    (Scalar.select (IntOp.cmpi .eq l 2#32) (s 2#32) fz))
    (Scalar.select (IntOp.cmpi .eq l 3#32) (s 3#32) fz))
    (Scalar.select (IntOp.cmpi .eq l 4#32) (s 4#32) fz)

/-- What the body stores into the sums block: the old block plus the spread per-grade error totals. -/
def sumsStep (x0 x1 : Vec F S4096x128 .f32) (xo : Vec F S8x128 .f32) : FVec F S8x128 .f32 :=
  k0_pay1 lanes
    (k0_pay19 (k0_pay6 x1) (k0_pay7 x0 x1) lanes
      (k0_pay16 (k0_pay6 x1) (k0_pay7 x0 x1) lanes (k0_pay9 x0 x1) k0_pay11))
    (k0_pay22 (k0_pay6 x1) (k0_pay7 x0 x1)) k0_pay24 xo

/-- What the body stores into the counts block: the old block plus the spread per-grade counts. -/
def countsStep (x1 : Vec F S4096x128 .f32) (xo : Vec F S8x128 .f32) : FVec F S8x128 .f32 :=
  k0_pay2 lanes
    (k0_pay20 (k0_pay6 x1) lanes (k0_pay13 (k0_pay6 x1) lanes (k0_pay10 x1) k0_pay11) (k0_pay15 (k0_pay6 x1)) k0_pay17)
    (k0_pay23 (k0_pay6 x1)) xo

/-- The sums step at an element: the old value there plus the lane mix of the error shares. -/
theorem sumsStep_apply (x0 x1 : Vec F S4096x128 .f32) (xo : Vec F S8x128 .f32) (y : S8x128.Idx) :
    sumsStep x0 x1 xo y
      = FloatOps.addf (shapeCast S8x128 xo shapeCasts_S8x128_S8x128 y) (laneMix (segPart x0 x1) (lanes y)) := rfl

/-- The counts step at an element: the old value there plus the lane mix of the counts. -/
theorem countsStep_apply (x1 : Vec F S4096x128 .f32) (xo : Vec F S8x128 .f32) (y : S8x128.Idx) :
    countsStep x1 xo y
      = FloatOps.addf (shapeCast S8x128 xo shapeCasts_S8x128_S8x128 y) (laneMix (cntPart x1) (lanes y)) := rfl

/-! ## At the extended reals -/

/-- Over the extended reals a block's total is the sum of its elements: the reduction keeps only unit axes, and the
    cast to 1 × 4096 × 128 is a re-indexing of the same elements. -/
theorem blockTotal_eq (v : FVec Ideal S4096x128 .f32) : blockTotal v = ∑ y : S4096x128.Idx, v y := by
  unfold blockTotal extractAt
  refine (Ideal.multiReduction_add_total _ 0x00000000#32 reduces_S1x4096x128_S1 (fun b => by fin_cases b; rfl) (.inl rfl) rfl _).trans ?_
  exact Equiv.sum_comp (Shape.reshapeEquiv shapeCasts_S4096x128_S1x4096x128) v

/-- The lane number at row r, lane l is l. -/
theorem lanes_apply (r : Fin 8) (l : Fin 128) : lanes (ix2 r l) = BitVec.ofNat 32 l.val := by
  show BitVec.ofNat 32 (0 * 128 + l.val) = _
  rw [Nat.zero_mul, Nat.zero_add]

/-- At a lane g < 5 the lane mix is the g-th scalar: the other four selects give the zero, and zero is neutral. -/
theorem laneMix_lane (s : BitVec 32 → Ideal .f32) (g : Fin 5) :
    laneMix (F := Ideal) s (BitVec.ofNat 32 g.val) = s (BitVec.ofNat 32 g.val) := by
  have hz : (fz : Ideal .f32) = 0 := Ideal.ofBits_zero_f32
  unfold laneMix
  rw [hz]
  fin_cases g <;>
    simp only [Ideal.addf_def, zero_add, add_zero,
      show IntOp.cmpi .eq 0#32 0#32 = 1#1 from by decide,
      show IntOp.cmpi .eq 0#32 1#32 = 0#1 from by decide,
      show IntOp.cmpi .eq 0#32 2#32 = 0#1 from by decide,
      show IntOp.cmpi .eq 0#32 3#32 = 0#1 from by decide,
      show IntOp.cmpi .eq 0#32 4#32 = 0#1 from by decide,
      show IntOp.cmpi .eq 1#32 0#32 = 0#1 from by decide,
      show IntOp.cmpi .eq 1#32 1#32 = 1#1 from by decide,
      show IntOp.cmpi .eq 1#32 2#32 = 0#1 from by decide,
      show IntOp.cmpi .eq 1#32 3#32 = 0#1 from by decide,
      show IntOp.cmpi .eq 1#32 4#32 = 0#1 from by decide,
      show IntOp.cmpi .eq 2#32 0#32 = 0#1 from by decide,
      show IntOp.cmpi .eq 2#32 1#32 = 0#1 from by decide,
      show IntOp.cmpi .eq 2#32 2#32 = 1#1 from by decide,
      show IntOp.cmpi .eq 2#32 3#32 = 0#1 from by decide,
      show IntOp.cmpi .eq 2#32 4#32 = 0#1 from by decide,
      show IntOp.cmpi .eq 3#32 0#32 = 0#1 from by decide,
      show IntOp.cmpi .eq 3#32 1#32 = 0#1 from by decide,
      show IntOp.cmpi .eq 3#32 2#32 = 0#1 from by decide,
      show IntOp.cmpi .eq 3#32 3#32 = 1#1 from by decide,
      show IntOp.cmpi .eq 3#32 4#32 = 0#1 from by decide,
      show IntOp.cmpi .eq 4#32 0#32 = 0#1 from by decide,
      show IntOp.cmpi .eq 4#32 1#32 = 0#1 from by decide,
      show IntOp.cmpi .eq 4#32 2#32 = 0#1 from by decide,
      show IntOp.cmpi .eq 4#32 3#32 = 0#1 from by decide,
      show IntOp.cmpi .eq 4#32 4#32 = 1#1 from by decide,
      select_one, select_zero]

/-- So at row r and a lane g < 5 the sums step adds grade g's share of the block's error to what was there. -/
theorem sumsStep_lane (x0 x1 : Vec Ideal S4096x128 .f32) (xo : Vec Ideal S8x128 .f32) (r : Fin 8) (g : Fin 5) (l : Fin 128)
    (hl : l.val = g.val) :
    sumsStep x0 x1 xo (ix2 r l) = xo (ix2 r l) + segPart x0 x1 (BitVec.ofNat 32 g.val) := by
  rw [sumsStep_apply, lanes_apply, hl, laneMix_lane, shapeCast_self]
  rfl

/-- And the counts step adds grade g's count in the block. -/
theorem countsStep_lane (x1 : Vec Ideal S4096x128 .f32) (xo : Vec Ideal S8x128 .f32) (r : Fin 8) (g : Fin 5) (l : Fin 128)
    (hl : l.val = g.val) :
    countsStep x1 xo (ix2 r l) = xo (ix2 r l) + cntPart x1 (BitVec.ofNat 32 g.val) := by
  rw [countsStep_apply, lanes_apply, hl, laneMix_lane, shapeCast_self]
  rfl

end Cert.KernelIdeal.KStep

end
-- ==== Proof.KOut.lean ====
/-
  What each control case of the kernel body leaves in the two accumulator blocks, as values.

  At the first grid point the body zeroes both accumulator blocks and then adds the point's step to the zero block;
  at every later point it adds the step to what the point before left.  Each block is written by whole-block stores;
  read back, the last store's payload is the step function of the loaded blocks.
-/
import proofs.«171762_j6700148982004_1_alg».proof.Proof.Gen.KernelIdeal.Frame
import proofs.«171762_j6700148982004_1_alg».proof.Proof.KStep
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.KOut

open Cert.KernelIdeal Cert.KernelIdeal.Gen Cert.KernelIdeal.KStep

variable {F : FTy → Type} [FloatOps F]

theorem hz : (![0, 0] : Fin 2 → Nat) = fun _ => 0 := funext fun a => by fin_cases a <;> rfl

/-- The zero block the first point stores before accumulating. -/
abbrev zeroBlock : Vec F S8x128 .f32 := broadcast S8x128 (Scalar.ofBits .f32 0x00000000#32)

/-- A later point leaves, in the sums block holding xo, the step of the point's blocks over xo. -/
theorem sums_later (c : Dev nD) (i : grid0.Coords) (a1 : Memref sig .tc .vmem S4096x128 .f32) (h1 : a1.IsWhole)
    (a2 : Memref sig .tc .vmem S4096x128 .f32) (h2 : a2.IsWhole) (a3 : Memref sig .tc .vmem S8x128 .f32) (h3 : a3.IsWhole)
    (a4 : Memref sig .tc .vmem S8x128 .f32) (h4 : a4.IsWhole) (hc : ¬cond0_0 i)
    (x0 x1 : Vec F S4096x128 .f32) (xo2 xo3 : Vec F S8x128 .f32) :
    out0_B_2 c i a1 h1 a2 h2 a3 h3 a4 h4 hc x0 x1 xo2 xo3 = sumsStep x0 x1 xo2 := by
  unfold out0_B_2
  rw [View.read_writes_eq_canon _ _ _ (cover0_B_2 c i a1 h1 a2 h2 a3 h3 a4 h4 hc x0 x1 xo2 xo3)]
  unfold kernelRun0_B
  dsimp only
  sl_unfold_words
  rw [View.canon_unit_zero hz]
  simp only [View.readAt_eq_ld, h1.read_unread, h2.read_unread, h3.read_unread, h4.read_unread,
    View.ld_unit_zero (S := S8x128) hz, View.ld_unit_zero (S := S4096x128) hz]
  rfl

/-- A later point leaves, in the counts block holding xo, the step of the point's target block over xo. -/
theorem counts_later (c : Dev nD) (i : grid0.Coords) (a1 : Memref sig .tc .vmem S4096x128 .f32) (h1 : a1.IsWhole)
    (a2 : Memref sig .tc .vmem S4096x128 .f32) (h2 : a2.IsWhole) (a3 : Memref sig .tc .vmem S8x128 .f32) (h3 : a3.IsWhole)
    (a4 : Memref sig .tc .vmem S8x128 .f32) (h4 : a4.IsWhole) (hc : ¬cond0_0 i)
    (x0 x1 : Vec F S4096x128 .f32) (xo2 xo3 : Vec F S8x128 .f32) :
    out0_B_3 c i a1 h1 a2 h2 a3 h3 a4 h4 hc x0 x1 xo2 xo3 = countsStep x1 xo3 := by
  unfold out0_B_3
  rw [View.read_writes_eq_canon _ _ _ (cover0_B_3 c i a1 h1 a2 h2 a3 h3 a4 h4 hc x0 x1 xo2 xo3)]
  unfold kernelRun0_B
  dsimp only
  sl_unfold_words
  rw [View.canon_unit_zero hz]
  simp only [View.readAt_eq_ld, h1.read_unread, h2.read_unread, h3.read_unread, h4.read_unread,
    View.ld_unit_zero (S := S8x128) hz, View.ld_unit_zero (S := S4096x128) hz]
  rfl

/-- The first point leaves in the sums block the step over the zero block it has just stored. -/
theorem sums_first (c : Dev nD) (i : grid0.Coords) (a1 : Memref sig .tc .vmem S4096x128 .f32) (h1 : a1.IsWhole)
    (a2 : Memref sig .tc .vmem S4096x128 .f32) (h2 : a2.IsWhole) (a3 : Memref sig .tc .vmem S8x128 .f32) (h3 : a3.IsWhole)
    (a4 : Memref sig .tc .vmem S8x128 .f32) (h4 : a4.IsWhole) (hc : cond0_0 i)
    (x0 x1 : Vec F S4096x128 .f32) :
    out0_A_2 c i a1 h1 a2 h2 a3 h3 a4 h4 hc x0 x1 = sumsStep x0 x1 zeroBlock := by
  unfold out0_A_2
  rw [View.read_writes_eq_canon _ _ _ (cover0_A_2 c i a1 h1 a2 h2 a3 h3 a4 h4 hc x0 x1)]
  unfold kernelRun0_A
  dsimp only
  sl_unfold_words
  rw [View.canon_cons_unit_zero (S := S8x128) hz, View.readCov_unit_zero (S := S8x128) _ hz]
  simp only [View.readAt_eq_ld, h1.read_unread, h2.read_unread,
    View.ld_unit_zero (S := S8x128) hz, View.ld_unit_zero (S := S4096x128) hz]
  rfl

/-- The first point leaves in the counts block the step over the zero block it has just stored. -/
theorem counts_first (c : Dev nD) (i : grid0.Coords) (a1 : Memref sig .tc .vmem S4096x128 .f32) (h1 : a1.IsWhole)
    (a2 : Memref sig .tc .vmem S4096x128 .f32) (h2 : a2.IsWhole) (a3 : Memref sig .tc .vmem S8x128 .f32) (h3 : a3.IsWhole)
    (a4 : Memref sig .tc .vmem S8x128 .f32) (h4 : a4.IsWhole) (hc : cond0_0 i)
    (x0 x1 : Vec F S4096x128 .f32) :
    out0_A_3 c i a1 h1 a2 h2 a3 h3 a4 h4 hc x0 x1 = countsStep x1 zeroBlock := by
  unfold out0_A_3
  rw [View.read_writes_eq_canon _ _ _ (cover0_A_3 c i a1 h1 a2 h2 a3 h3 a4 h4 hc x0 x1)]
  unfold kernelRun0_A
  dsimp only
  sl_unfold_words
  rw [View.canon_cons_unit_zero (S := S8x128) hz, View.readCov_unit_zero (S := S8x128) _ hz]
  simp only [View.readAt_eq_ld, h1.read_unread, h2.read_unread,
    View.ld_unit_zero (S := S8x128) hz, View.ld_unit_zero (S := S4096x128) hz]
  rfl

end Cert.KernelIdeal.KOut

end
-- ==== Proof.KAcc.lean ====
/-
  The accumulator blocks after every grid point: at row r and a lane g < 5, the sums block holds the sum, over the
  points so far, of grade g's share of each point's block of absolute errors, and the counts block the sum of grade
  g's counts.  By induction on the point: the first point starts from the zero block, each later point adds its
  step to what the point before left.
-/
import proofs.«171762_j6700148982004_1_alg».proof.Proof.Gen.KernelIdeal.Frame
import proofs.«171762_j6700148982004_1_alg».proof.Proof.KStep
import proofs.«171762_j6700148982004_1_alg».proof.Proof.KOut

noncomputable section

open Idealize.ShloMosaic Idealize.ShloMosaic.TcCoe Idealize.SL.Sem Idealize.ShloMosaic.ValueIdx

namespace Cert.KernelIdeal.KAcc

open Cert.KernelIdeal Cert.KernelIdeal.Gen Cert.KernelIdeal.KStep Cert.KernelIdeal.KOut

variable (m : (ℓ : Loc nD τ sig) → Buf (Elt Ideal) ℓ)

/-- The points up to and including point n. -/
abbrev upTo (n : ℕ) : Finset (Fin cfg0.N) := Finset.univ.filter fun t => t.val ≤ n

theorem upTo_zero (h : 0 < cfg0.N) : upTo 0 = {⟨0, h⟩} := by
  ext t
  simp only [upTo, Finset.mem_filter, Finset.mem_univ, true_and, Finset.mem_singleton, Fin.ext_iff]
  omega

theorem upTo_succ (n : ℕ) (h : n + 1 < cfg0.N) : upTo (n + 1) = insert ⟨n + 1, h⟩ (upTo n) := by
  ext t
  simp only [upTo, Finset.mem_filter, Finset.mem_univ, true_and, Finset.mem_insert, Fin.ext_iff]
  omega

theorem not_mem_upTo (n : ℕ) (h : n + 1 < cfg0.N) : (⟨n + 1, h⟩ : Fin cfg0.N) ∉ upTo n := by
  simp only [upTo, Finset.mem_filter, Finset.mem_univ, true_and]
  omega

/-- Grade g's share of the error of point t's blocks. -/
abbrev errAt (c : Dev nD) (g : BitVec 32) (t : Fin cfg0.N) : EReal := segPart (iblk m c 0 t) (iblk m c 1 t) g
/-- Grade g's count in point t's target block. -/
abbrev cntAt (c : Dev nD) (g : BitVec 32) (t : Fin cfg0.N) : EReal := cntPart (iblk m c 1 t) g

/-- The sums block after point n, at row r and lane g < 5: the error shares of the points so far. -/
theorem sums_upTo (c : Dev nD) (r : Fin 8) (g : Fin 5) (l : Fin 128) (hl : l.val = g.val) :
    ∀ (n : ℕ) (h : n < cfg0.N), (outsAt0 m c n h).1 (ix2 r l) = ∑ t ∈ upTo n, errAt m c (BitVec.ofNat 32 g.val) t
  | 0, h => by
    rw [outsAt0_A m c ⟨0, h⟩ rfl]
    dsimp only
    rw [sums_first c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩)
      (ms0_3 ⟨0, h⟩) (hs0_3 ⟨0, h⟩) ((hcond0_0 ⟨0, h⟩).mpr rfl) (iblk m c 0 ⟨0, h⟩) (iblk m c 1 ⟨0, h⟩),
      sumsStep_lane (iblk m c 0 ⟨0, h⟩) (iblk m c 1 ⟨0, h⟩) zeroBlock r g l hl, upTo_zero h, Finset.sum_singleton]
    show Ideal.ofBits .f32 0x00000000#32 + _ = _
    rw [Ideal.ofBits_zero_f32, zero_add]
  | n + 1, h => by
    have hN : cfg0.N = 32 := N_0
    have hB : ¬(⟨n + 1, h⟩ : Fin cfg0.N).val % 32 = 0 := by dsimp only; omega
    rw [outsAt0_B m c ⟨n + 1, h⟩ hB]
    dsimp only
    rw [sums_later c (grid0.coords ⟨n + 1, h⟩) (ms0_0 ⟨n + 1, h⟩) (hs0_0 ⟨n + 1, h⟩) (ms0_1 ⟨n + 1, h⟩) (hs0_1 ⟨n + 1, h⟩)
      (ms0_2 ⟨n + 1, h⟩) (hs0_2 ⟨n + 1, h⟩) (ms0_3 ⟨n + 1, h⟩) (hs0_3 ⟨n + 1, h⟩) (fun h' => hB ((hcond0_0 ⟨n + 1, h⟩).mp h'))
      (iblk m c 0 ⟨n + 1, h⟩) (iblk m c 1 ⟨n + 1, h⟩) _ _,
      sumsStep_lane (iblk m c 0 ⟨n + 1, h⟩) (iblk m c 1 ⟨n + 1, h⟩) _ r g l hl]
    show (outsAt0 m c n _).1 (ix2 r l) + _ = _
    rw [sums_upTo c r g l hl n, upTo_succ n h, Finset.sum_insert (not_mem_upTo n h), add_comm]

/-- The counts block after point n, at row r and lane g < 5: the counts of the points so far. -/
theorem counts_upTo (c : Dev nD) (r : Fin 8) (g : Fin 5) (l : Fin 128) (hl : l.val = g.val) :
    ∀ (n : ℕ) (h : n < cfg0.N), (outsAt0 m c n h).2 (ix2 r l) = ∑ t ∈ upTo n, cntAt m c (BitVec.ofNat 32 g.val) t
  | 0, h => by
    rw [outsAt0_A m c ⟨0, h⟩ rfl]
    dsimp only
    rw [counts_first c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩)
      (ms0_3 ⟨0, h⟩) (hs0_3 ⟨0, h⟩) ((hcond0_0 ⟨0, h⟩).mpr rfl) (iblk m c 0 ⟨0, h⟩) (iblk m c 1 ⟨0, h⟩),
      countsStep_lane (iblk m c 1 ⟨0, h⟩) zeroBlock r g l hl, upTo_zero h, Finset.sum_singleton]
    show Ideal.ofBits .f32 0x00000000#32 + _ = _
    rw [Ideal.ofBits_zero_f32, zero_add]
  | n + 1, h => by
    have hN : cfg0.N = 32 := N_0
    have hB : ¬(⟨n + 1, h⟩ : Fin cfg0.N).val % 32 = 0 := by dsimp only; omega
    rw [outsAt0_B m c ⟨n + 1, h⟩ hB]
    dsimp only
    rw [counts_later c (grid0.coords ⟨n + 1, h⟩) (ms0_0 ⟨n + 1, h⟩) (hs0_0 ⟨n + 1, h⟩) (ms0_1 ⟨n + 1, h⟩) (hs0_1 ⟨n + 1, h⟩)
      (ms0_2 ⟨n + 1, h⟩) (hs0_2 ⟨n + 1, h⟩) (ms0_3 ⟨n + 1, h⟩) (hs0_3 ⟨n + 1, h⟩) (fun h' => hB ((hcond0_0 ⟨n + 1, h⟩).mp h'))
      (iblk m c 0 ⟨n + 1, h⟩) (iblk m c 1 ⟨n + 1, h⟩) _ _,
      countsStep_lane (iblk m c 1 ⟨n + 1, h⟩) _ r g l hl]
    show (outsAt0 m c n _).2 (ix2 r l) + _ = _
    rw [counts_upTo c r g l hl n, upTo_succ n h, Finset.sum_insert (not_mem_upTo n h), add_comm]

/-- After the last point every point is counted. -/
theorem upTo_last : upTo 31 = Finset.univ := by
  have hN : cfg0.N = 32 := N_0
  exact Finset.filter_true_of_mem fun t _ => by have := t.isLt; omega

end Cert.KernelIdeal.KAcc

end
-- ==== Proof.KRead.lean ====
/-
  The accumulated per-grade totals of the kernel, as sums over the whole argument arrays.

  The region finds the two arguments reshaped to 131072 × 128; point t's blocks are rows 4096 t … 4096 t + 4095 of
  them.  A block's masked total is the double sum over its rows and lanes; the 32 blocks' rows are all the rows, once
  each; and the reshape is a re-indexing of the 2²⁴ elements.  So the sum over the points of grade g's share is the
  total, over all elements of grade g, of the absolute error — and likewise for the counts.
-/
import proofs.«171762_j6700148982004_1_alg».proof.Proof.Gen.KernelIdeal.Frame
import proofs.«171762_j6700148982004_1_alg».proof.Proof.SegSpec
import proofs.«171762_j6700148982004_1_alg».proof.Proof.KStep
import proofs.«171762_j6700148982004_1_alg».proof.Proof.KAcc
import Idealize.ShloMosaic.Lib.Pipeline.Value
import Idealize.ShloMosaic.Lib.StableHlo.Run

noncomputable section

open Idealize.ShloMosaic Idealize.ShloMosaic.TcCoe Idealize.SL.Sem Idealize.ShloMosaic.ValueIdx

namespace Cert.KernelIdeal.KRead

open Cert.KernelIdeal Cert.KernelIdeal.Gen Cert.KernelIdeal.KStep Cert.KernelIdeal.KAcc Cert.SegSpec

variable (m : (ℓ : Loc nD τ sig) → Buf (Elt Ideal) ℓ)

/-- The predictions and the targets as the region finds them: reshaped to 131072 × 128. -/
abbrev pred2 (c : Dev nD) : FVec Ideal S131072x128 .f32 :=
  shapeCast S131072x128 (m ((c : Thread nD τ).loc main_arg0)) shapeCasts_S16777216_S131072x128
abbrev targ2 (c : Dev nD) : FVec Ideal S131072x128 .f32 :=
  shapeCast S131072x128 (m ((c : Thread nD τ).loc main_arg1)) shapeCasts_S16777216_S131072x128

theorem V_v0 (c : Dev nD) : (V m c main_v0 : S131072x128.Idx → Ideal .f32) = pred2 m c := by
  show StableHlo.after hostOps0 (fun b => m (c, b)) (Proc.devRef .tc main_v0) = _
  after_results
  rfl

theorem V_v1 (c : Dev nD) : (V m c main_v1 : S131072x128.Idx → Ideal .f32) = targ2 m c := by
  show StableHlo.after hostOps0 (fun b => m (c, b)) (Proc.devRef .tc main_v1) = _
  after_results
  rfl

/-- Row r of point t's block is row 4096 t + r of the array. -/
def row (t : Fin cfg0.N) (r : Fin 4096) : Fin 131072 :=
  ⟨t.val * 4096 + r.val, by have h : t.val < 32 := lt_of_lt_of_eq t.isLt N_0; have := r.isLt; omega⟩

theorem idx_facts : ∀ t : Fin cfg0.N, win0_0.index t 0 = t.val ∧ win0_0.index t 1 = 0 ∧ win0_1.index t 0 = t.val ∧ win0_1.index t 1 = 0 :=
  (by decide +kernel : ∀ t : Fin grid0.N, win0_0.index t 0 = t.val ∧ win0_0.index t 1 = 0 ∧ win0_1.index t 0 = t.val ∧ win0_1.index t 1 = 0)

/-- Point t's block of predictions, element by element. -/
theorem iblk0_apply (c : Dev nD) (t : Fin cfg0.N) (r : Fin 4096) (l : Fin 128) :
    (iblk m c 0 t : Vec Ideal S4096x128 .f32) (ix2 r l) = pred2 m c (ix2 (row t r) l) := by
  unfold iblk
  rw [View.read_apply]
  show V m c main_v0 (((cfg0.win 0).blk t).view.emb (ix2 r l)) = _
  rw [V_v0]
  refine congrArg (pred2 m c) (funext fun a => Fin.ext ?_)
  match a with
  | ⟨0, _⟩ => show win0_0.index t 0 * 4096 + 1 * r.val = t.val * 4096 + r.val; rw [(idx_facts t).1]; omega
  | ⟨1, _⟩ => show win0_0.index t 1 * 128 + 1 * l.val = l.val; rw [(idx_facts t).2.1]; omega

/-- Point t's block of targets, element by element. -/
theorem iblk1_apply (c : Dev nD) (t : Fin cfg0.N) (r : Fin 4096) (l : Fin 128) :
    (iblk m c 1 t : Vec Ideal S4096x128 .f32) (ix2 r l) = targ2 m c (ix2 (row t r) l) := by
  unfold iblk
  rw [View.read_apply]
  show V m c main_v1 (((cfg0.win 1).blk t).view.emb (ix2 r l)) = _
  rw [V_v1]
  refine congrArg (targ2 m c) (funext fun a => Fin.ext ?_)
  match a with
  | ⟨0, _⟩ => show win0_1.index t 0 * 4096 + 1 * r.val = t.val * 4096 + r.val; rw [(idx_facts t).2.2.1]; omega
  | ⟨1, _⟩ => show win0_1.index t 1 * 128 + 1 * l.val = l.val; rw [(idx_facts t).2.2.2]; omega

/-- An element's contribution to grade g's error total, and to its count. -/
def errTerm (g : BitVec 32) (p q : Ideal .f32) : EReal := if gradeOf q = g then errOf p q else 0
def cntTerm (g : BitVec 32) (q : Ideal .f32) : EReal := if gradeOf q = g then 1 else 0

theorem pay6_apply (x1 : Vec Ideal S4096x128 .f32) (y : S4096x128.Idx) : k0_pay6 x1 y = gradeOf (x1 y) := by
  unfold k0_pay6 k0_pay5; rw [shapeCast_self]; rfl

theorem pay7_apply (x0 x1 : Vec Ideal S4096x128 .f32) (y : S4096x128.Idx) : k0_pay7 x0 x1 y = errOf (x0 y) (x1 y) := by
  unfold k0_pay7 k0_pay5; rw [shapeCast_self, shapeCast_self]; rfl

/-- A block's share of grade g's error: the double sum of the elements' contributions. -/
theorem segPart_eq (x0 x1 : Vec Ideal S4096x128 .f32) (g : BitVec 32) :
    segPart x0 x1 g = ∑ r : Fin 4096, ∑ l : Fin 128, errTerm g (x0 (ix2 r l)) (x1 (ix2 r l)) := by
  unfold segPart
  rw [blockTotal_eq, sum_idx2]
  refine Finset.sum_congr rfl fun r _ => Finset.sum_congr rfl fun l _ => ?_
  show Scalar.select (IntOp.cmpi .eq (k0_pay6 x1 (ix2 r l)) g) (k0_pay7 x0 x1 (ix2 r l)) (Ideal.ofBits .f32 0x00000000#32) = _
  rw [select_cmpi_eq, Ideal.ofBits_zero_f32, pay6_apply, pay7_apply]
  rfl

/-- A block's count of grade g: the double sum of the elements' contributions. -/
theorem cntPart_eq (x1 : Vec Ideal S4096x128 .f32) (g : BitVec 32) :
    cntPart x1 g = ∑ r : Fin 4096, ∑ l : Fin 128, cntTerm g (x1 (ix2 r l)) := by
  unfold cntPart
  rw [blockTotal_eq, sum_idx2]
  refine Finset.sum_congr rfl fun r _ => Finset.sum_congr rfl fun l _ => ?_
  show FloatOps.sitofp (F := Ideal) .f32 ((IntOp.cmpi .eq (k0_pay6 x1 (ix2 r l)) g).setWidth 32) = _
  rw [sitofp_mask, pay6_apply]
  rfl

/-- A sum over the points of a double sum over a block's rows and lanes, of a function of the array index, is the
    sum over the whole 131072 × 128 array. -/
theorem sum_points (φ : S131072x128.Idx → EReal) :
    ∑ t : Fin cfg0.N, ∑ r : Fin 4096, ∑ l : Fin 128, φ (ix2 (row t r) l) = ∑ i : S131072x128.Idx, φ i := by
  rw [sum_idx2 φ, ← sum_blocks fun R => ∑ l : Fin 128, φ (ix2 R l)]
  exact Fintype.sum_equiv (finCongr N_0) _ _ fun t => rfl

/-- The error shares of all the points: the total error of the elements of grade g, over the whole argument. -/
theorem err_total (c : Dev nD) (g : BitVec 32) :
    ∑ t : Fin cfg0.N, errAt m c g t
      = gradeTotal (fun j => gradeOf (m ((c : Thread nD τ).loc main_arg1) j))
          (fun j => errOf (m ((c : Thread nD τ).loc main_arg0) j) (m ((c : Thread nD τ).loc main_arg1) j)) g := by
  have h1 : ∀ t : Fin cfg0.N, errAt m c g t
      = ∑ r : Fin 4096, ∑ l : Fin 128, errTerm g (pred2 m c (ix2 (row t r) l)) (targ2 m c (ix2 (row t r) l)) := fun t => by
    show segPart (iblk m c 0 t) (iblk m c 1 t) g = _
    rw [segPart_eq]
    refine Finset.sum_congr rfl fun r _ => Finset.sum_congr rfl fun l _ => ?_
    rw [iblk0_apply, iblk1_apply]
  rw [Finset.sum_congr rfl fun t _ => h1 t, sum_points fun i => errTerm g (pred2 m c i) (targ2 m c i)]
  exact Equiv.sum_comp (Shape.reshapeEquiv shapeCasts_S16777216_S131072x128)
    fun j => errTerm g (m ((c : Thread nD τ).loc main_arg0) j) (m ((c : Thread nD τ).loc main_arg1) j)

/-- The counts of all the points: the number of elements of grade g, over the whole argument. -/
theorem cnt_total (c : Dev nD) (g : BitVec 32) :
    ∑ t : Fin cfg0.N, cntAt m c g t
      = gradeTotal (fun j => gradeOf (m ((c : Thread nD τ).loc main_arg1) j)) (fun _ => 1) g := by
  have h1 : ∀ t : Fin cfg0.N, cntAt m c g t
      = ∑ r : Fin 4096, ∑ l : Fin 128, cntTerm g (targ2 m c (ix2 (row t r) l)) := fun t => by
    show cntPart (iblk m c 1 t) g = _
    rw [cntPart_eq]
    refine Finset.sum_congr rfl fun r _ => Finset.sum_congr rfl fun l _ => ?_
    rw [iblk1_apply]
  rw [Finset.sum_congr rfl fun t _ => h1 t, sum_points fun i => cntTerm g (targ2 m c i)]
  exact Equiv.sum_comp (Shape.reshapeEquiv shapeCasts_S16777216_S131072x128)
    fun j => cntTerm g (m ((c : Thread nD τ).loc main_arg1) j)

end Cert.KernelIdeal.KRead

end
-- ==== Proof.RefValue.lean ====
/-
  The reference's two scatters, read at a grade.

  The reference adds every element's update into the slot its grade names: the scatter's start index is the grade
  read as a signed integer, not clamped, and an update whose index falls outside 0 … 4 is dropped.  So slot g of
  the result holds the initial zero plus the total of the updates of the elements whose grade is g.
-/
import proofs.«171762_j6700148982004_1_alg».proof.Proof.Gen.ReferenceIdeal
import proofs.«171762_j6700148982004_1_alg».proof.Proof.SegSpec
import Idealize.ShloMosaic.PureOps.Ideal.Laws
import Idealize.ShloMosaic.Lib.ValueIdx

noncomputable section

open Idealize.ShloMosaic Idealize.ShloMosaic.ValueIdx

namespace Cert.ReferenceIdeal.RefValue

open Cert.ReferenceIdeal Cert.ReferenceIdeal.Gen Cert.SegSpec

/-- The scatter's dimension numbers: one index per element, naming a slot of the five. -/
abbrev sd : ScatterDims S5 S16777216x1 S16777216 := scatter_S5_S16777216x1_S16777216_n_0_0_1

/-- The grades as the scatter's index tensor: a column. -/
abbrev col (seg : IVec S16777216 32) : IVec S16777216x1 32 :=
  broadcastInDim S16777216x1 ![0] bcast_S16777216_S16777216x1_0 seg

/-- Element j's landing position on the one axis: its grade, read signed. -/
theorem start_window (seg : IVec S16777216 32) (j : S16777216.Idx) (a : Fin S5.rank) :
    sd.start j (col seg) a + (sd.window j a : Int) = (seg j).toInt := by
  obtain rfl : a = (0 : Fin 1) := Fin.fin_one_eq_zero a
  have hw : sd.window j (0 : Fin 1) = 0 := by unfold ScatterDims.window; exact dif_neg (by decide)
  have hs : sd.start j (col seg) (0 : Fin 1) = (seg j).toInt := by
    unfold ScatterDims.start
    rw [dif_pos (by decide)]
    refine congrArg BitVec.toInt (congrArg seg (funext fun b => Fin.ext ?_))
    obtain rfl : b = (0 : Fin 1) := Fin.fin_one_eq_zero b
    rfl
  rw [hw, hs]; simp

/-- Element j lands on slot g exactly when its grade is g. -/
theorem resultIdx_iff (seg : IVec S16777216 32) (j : S16777216.Idx) (g : Fin 5) :
    sd.resultIdx? j (col seg) = some (ix1 g) ↔ seg j = BitVec.ofNat 32 g.val := by
  rw [eq_ofNat_iff_toInt]
  unfold ScatterDims.resultIdx?
  constructor
  · intro h
    split at h
    · rename_i hall
      have h0 := congrArg (fun f : S5.Idx => (f 0).val) (Option.some.inj h)
      have hsw := start_window seg j 0
      have hpos := (hall 0).1
      simp only at h0
      rw [hsw] at h0 hpos
      show (seg j).toInt = (g.val : Int)
      have : ((seg j).toInt.toNat : Int) = (g.val : Int) := by exact_mod_cast h0
      omega
    · cases h
  · intro h
    have hall : ∀ a, 0 ≤ sd.start j (col seg) a + (sd.window j a : Int) ∧ sd.start j (col seg) a + (sd.window j a : Int) < S5.size a := by
      intro a
      rw [start_window, h]
      match a with
      | ⟨0, _⟩ => exact ⟨by omega, by show (g.val : Int) < 5; have := g.isLt; omega⟩
    rw [dif_pos hall]
    refine congrArg some (funext fun a => Fin.ext ?_)
    match a with
    | ⟨0, _⟩ =>
      show (sd.start j (col seg) 0 + (sd.window j 0 : Int)).toNat = g.val
      rw [start_window, h]; simp

/-- Slot g of an accumulating scatter by grade: what was there plus the total of the updates of grade g. -/
theorem scatter_apply (x : FVec Ideal S5 .f32) (seg : IVec S16777216 32) (upd : FVec Ideal S16777216 .f32) (g : Fin 5) :
    Host.scatterAdd sd x (col seg) upd (ix1 g) = x (ix1 g) + gradeTotal seg upd (BitVec.ofNat 32 g.val) := by
  show Ideal.hostScatterAdd sd x (col seg) upd (ix1 g) = _
  unfold Ideal.hostScatterAdd gradeTotal
  rw [Finset.sum_filter]
  refine congrArg (x (ix1 g) + ·) (Finset.sum_congr rfl fun j _ => ?_)
  by_cases h : seg j = BitVec.ofNat 32 g.val
  · rw [if_pos h, if_pos ((resultIdx_iff seg j g).mpr h)]
  · rw [if_neg h, if_neg (mt (resultIdx_iff seg j g).mp h)]

end Cert.ReferenceIdeal.RefValue

end
-- ==== Proof.Bridge.lean ====
/-
  The two programs' five-vectors are the same functions of the arguments.

  Kernel: row 0, lane g of each result array holds the accumulated totals of the 32 points, which are the totals over
  all elements of grade g.  Reference: slot g of each scatter holds zero plus the total of the updates of grade g.
  The grade and the absolute error are computed by the same operations on both sides, and the count's update is
  the float one, which denotes 1.
-/
import proofs.«171762_j6700148982004_1_alg».proof.Proof.Gen.KernelIdeal.Frame
import proofs.«171762_j6700148982004_1_alg».proof.Proof.Gen.ReferenceIdeal
import proofs.«171762_j6700148982004_1_alg».proof.Proof.SegSpec
import proofs.«171762_j6700148982004_1_alg».proof.Proof.KAcc
import proofs.«171762_j6700148982004_1_alg».proof.Proof.KFinal
import proofs.«171762_j6700148982004_1_alg».proof.Proof.KRead
import proofs.«171762_j6700148982004_1_alg».proof.Proof.RefValue

noncomputable section

open Idealize.ShloMosaic Idealize.ShloMosaic.TcCoe Idealize.SL.Sem Idealize.ShloMosaic.ValueIdx

namespace Cert.Bridge

open Cert.SegSpec

/-- The per-grade error totals of the whole arguments, as a five-vector. -/
def errVec (P Q : FVec Ideal ⟨1, ![16777216]⟩ .f32) : FVec Ideal T5 .f32 :=
  fun i => gradeTotal (fun j => gradeOf (Q j)) (fun j => errOf (P j) (Q j)) (BitVec.ofNat 32 (i 0).val)

/-- The per-grade counts of the whole target, as a five-vector. -/
def cntVec (Q : FVec Ideal ⟨1, ![16777216]⟩ .f32) : FVec Ideal T5 .f32 :=
  fun i => gradeTotal (fun j => gradeOf (Q j)) (fun _ => 1) (BitVec.ofNat 32 (i 0).val)

section Kernel

open Cert.KernelIdeal Cert.KernelIdeal.Gen Cert.KernelIdeal.KFinal

/-- Row 0, lanes 0 … 4: slot g of the five-vector is row 0, lane g of the array. -/
theorem head5_apply (A : FVec Ideal S8x128 .f32) (g : Fin 5) :
    head5 A (ix1 g) = A (ix2 (0 : Fin 8) (⟨g.val, by have := g.isLt; omega⟩ : Fin 128)) := by
  unfold head5
  rw [shapeCast_apply _ _ (ix1 g) (ix2 (0 : Fin 1) g) (by
    rw [Shape.rowMajor_val_two, Shape.rowMajor_val_one]; show 0 * 5 + g.val = g.val; omega)]
  unfold extractStridedSlice
  refine congrArg A (funext fun a => Fin.ext ?_)
  match a with
  | ⟨0, _⟩ => show 0 + 0 = 0; rfl
  | ⟨1, _⟩ => show 0 + g.val = g.val; omega

variable (m : (ℓ : Loc nD τ sig) → Buf (Elt Ideal) ℓ)

/-- The kernel's first five-vector is the per-grade error totals of the arguments. -/
theorem kernel_sums (c : Dev nD) :
    head5 (res2 m c) = errVec (m ((c : Thread nD τ).loc main_arg0)) (m ((c : Thread nD τ).loc main_arg1)) := by
  funext i
  obtain ⟨g, rfl⟩ : ∃ g : Fin 5, i = ix1 g := ⟨i 0, eq_ix1 i⟩
  rw [head5_apply]
  refine (KAcc.sums_upTo m c 0 g ⟨g.val, by have := g.isLt; omega⟩ rfl 31 tLast.isLt).trans ?_
  rw [KAcc.upTo_last, KRead.err_total]
  rfl

/-- The kernel's second five-vector is the per-grade counts of the target. -/
theorem kernel_counts (c : Dev nD) :
    head5 (res3 m c) = cntVec (m ((c : Thread nD τ).loc main_arg1)) := by
  funext i
  obtain ⟨g, rfl⟩ : ∃ g : Fin 5, i = ix1 g := ⟨i 0, eq_ix1 i⟩
  rw [head5_apply]
  refine (KAcc.counts_upTo m c 0 g ⟨g.val, by have := g.isLt; omega⟩ rfl 31 tLast.isLt).trans ?_
  rw [KAcc.upTo_last, KRead.cnt_total]
  rfl

end Kernel

section Reference

open Cert.ReferenceIdeal Cert.ReferenceIdeal.Gen Cert.ReferenceIdeal.RefValue

/-- The reference's error scatter is the per-grade error totals. -/
theorem ref_sums (P Q : FVec Ideal S16777216 .f32) :
    Host.scatterAdd scatter_S5_S16777216x1_S16777216_n_0_0_1
        (broadcastInDim S5 ![] bcast_S_S5 (constant (F := Ideal) S_ .f32 0x00000000#32))
        (broadcastInDim S16777216x1 ![0] bcast_S16777216_S16777216x1_0 (fptosi 32 (Host.roundeven Q)))
        (Host.absf (subf P Q))
      = errVec P Q := by
  funext i
  obtain ⟨g, rfl⟩ : ∃ g : Fin 5, i = ix1 g := ⟨i 0, eq_ix1 i⟩
  rw [scatter_apply]
  show Ideal.ofBits .f32 0x00000000#32 + _ = _
  rw [Ideal.ofBits_zero_f32, zero_add]
  rfl

/-- The reference's count scatter is the per-grade counts. -/
theorem ref_counts (Q : FVec Ideal S16777216 .f32) :
    Host.scatterAdd scatter_S5_S16777216x1_S16777216_n_0_0_1
        (broadcastInDim S5 ![] bcast_S_S5 (constant (F := Ideal) S_ .f32 0x00000000#32))
        (broadcastInDim S16777216x1 ![0] bcast_S16777216_S16777216x1_0 (fptosi 32 (Host.roundeven Q)))
        (broadcastInDim S16777216 ![] bcast_S_S16777216 (constant (F := Ideal) S_ .f32 0x3F800000#32))
      = cntVec Q := by
  funext i
  obtain ⟨g, rfl⟩ : ∃ g : Fin 5, i = ix1 g := ⟨i 0, eq_ix1 i⟩
  rw [scatter_apply]
  show Ideal.ofBits .f32 0x00000000#32 + gradeTotal _ (fun _ => Ideal.ofBits .f32 0x3F800000#32) _ = _
  rw [Ideal.ofBits_zero_f32, zero_add, one_eq]
  rfl

end Reference

end Cert.Bridge

end
-- ==== Proof.lean ====
/-
  A segment-reduce loss: the mean, over the grades that occur, of the mean absolute error of each grade.

  Both programs bucket |pred − target| over 2²⁴ elements by the grade round(target) ∈ {0, …, 4}.  The reference
  does it with two accumulating scatters (the errors, and ones for the counts) over all elements at once.  The kernel
  reshapes the arguments to 131072 × 128, walks 32 blocks of 4096 rows, and at each block adds, into lane g of a
  resident 8 × 128 block, the block's total of the errors (and of the mask) where the grade is g; the host then
  reads row 0, lanes 0 … 4.  Both end with the same tail: per grade S/C where C > 0, summed, over the number of such
  grades.

  On the extended reals addition is commutative and associative and zero is neutral, so the kernel's blockwise,
  lanewise accumulation and the reference's scatter are the same sum over the elements of grade g: no finiteness of
  the inputs is used.  A grade outside 0 … 4 is dropped by both: by the kernel because no lane test matches it, by
  the scatter because an index outside the operand is not clamped.

    KStep    one grid point as a pure function: the old block plus the per-grade totals spread over the lanes
    KOut     the two control cases of the body leave that function of their loads
    KAcc     induction over the grid points: lane g holds the totals of the points so far
    KRead    the points' blocks are the rows of the reshaped arguments; the totals as sums over all elements
    KFinal   the result arrays after the run, and the host tail applied to row 0, lanes 0 … 4
    RefValue the scatter read at a slot
    Bridge   both five-vectors are the per-grade totals of the arguments
-/
import proofs.«171762_j6700148982004_1_alg».proof.Defs
import proofs.«171762_j6700148982004_1_alg».proof.Proof.Gen.Kernel
import proofs.«171762_j6700148982004_1_alg».proof.Proof.Gen.Kernel.Skeleton
import proofs.«171762_j6700148982004_1_alg».proof.Proof.Gen.Kernel.Launch
import proofs.«171762_j6700148982004_1_alg».proof.Proof.Gen.Kernel.Points
import proofs.«171762_j6700148982004_1_alg».proof.Proof.Gen.Kernel.Frame
import proofs.«171762_j6700148982004_1_alg».proof.Proof.Gen.KernelIdeal
import proofs.«171762_j6700148982004_1_alg».proof.Proof.Gen.KernelIdeal.Skeleton
import proofs.«171762_j6700148982004_1_alg».proof.Proof.Gen.KernelIdeal.Launch
import proofs.«171762_j6700148982004_1_alg».proof.Proof.Gen.KernelIdeal.Points
import proofs.«171762_j6700148982004_1_alg».proof.Proof.Gen.KernelIdeal.Frame
import proofs.«171762_j6700148982004_1_alg».proof.Proof.Gen.ReferenceIdeal
import proofs.«171762_j6700148982004_1_alg».proof.Proof.Gen.Pre_finite_inputs
import proofs.«171762_j6700148982004_1_alg».proof.Proof.RefRun
import proofs.«171762_j6700148982004_1_alg».proof.Proof.SegSpec
import proofs.«171762_j6700148982004_1_alg».proof.Proof.KFinal
import proofs.«171762_j6700148982004_1_alg».proof.Proof.Bridge
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.RunP.run (F := Ideal) m ρ)

/-- The ideal pass rewrote nothing. -/
theorem preserves : Cert.preserves_Kernel_KernelIdeal := trivial

/-- At the extended reals the kernel's result is the tail of row 0, lanes 0 … 4 of its two result arrays, the
    reference's the tail of its two scatters, of arguments that agree; the five-vectors are equal (both are the
    per-grade totals), and the tail is one function. -/
theorem algebraic : Cert.algebraic_KernelIdeal_ReferenceIdeal := by
  intro m ρ m' ρ' _ hagree
  refine ⟨_, Cert.KernelIdeal.KFinal.run ρ m, ?_⟩
  refine (θ_run Cert.ReferenceIdeal.defs _ _).mono (fun _ h c => ⟨(h c).1.trans ?_, (h c).2⟩)
    (Cert.ReferenceIdeal.RunP.run (F := Ideal) m' ρ')
  rw [(hagree c).1, (hagree c).2, Cert.Bridge.kernel_sums m c, Cert.Bridge.kernel_counts m c,
    ← Cert.Bridge.ref_sums, ← Cert.Bridge.ref_counts]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
